-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x3 : Shape := ⟨2, ![200000, 3]⟩
abbrev S_ : Shape := ⟨0, ![]⟩

class Facts : Prop where
  bcast_S_S200000x3 : S_.BroadcastsInDim S200000x3 (![] : Fin 0 → Fin S200000x3.rank)
  reducesTo_S200000x3_S_d0_1 : S200000x3.ReducesTo [0, 1] S_
  h_S_ : 0 < S_.numel

variable [Facts]

def fn {F : FTy → Type} [FloatOps F] (main_arg0 : FVec F S200000x3 .f32) : IVec S_ 1 :=
  let main_v0 : FVec F S200000x3 .f32 := Host.absf main_arg0
  let main_cst : FVec F S_ .f32 := constant S_ .f32 0x7F800000#32
  let main_v1 : FVec F S200000x3 .f32 := broadcastInDim S200000x3 ![] bcast_S_S200000x3 main_cst
  let main_v2 : IVec S200000x3 1 := cmpf .olt main_v0 main_v1
  let main_c : IVec S_ 1 := constantI S_ 1 1#1
  let main_v3 : IVec S_ 1 := (fun x v => Host.reduce IntOp.andi x v reducesTo_S200000x3_S_d0_1 h_S_) main_v2 main_c
  main_v3
-- ==== Kernel.lean ====
abbrev S200000x3 : Shape := ⟨2, ![200000, 3]⟩
abbrev S200000x1093 : Shape := ⟨2, ![200000, 1093]⟩
abbrev S1000x3 : Shape := ⟨2, ![1000, 3]⟩
abbrev S1000x1093 : Shape := ⟨2, ![1000, 1093]⟩
abbrev S1000x1 : Shape := ⟨2, ![1000, 1]⟩
abbrev S1000x9 : Shape := ⟨2, ![1000, 9]⟩
abbrev S1000x27 : Shape := ⟨2, ![1000, 27]⟩
abbrev S1000x81 : Shape := ⟨2, ![1000, 81]⟩
abbrev S1000x243 : Shape := ⟨2, ![1000, 243]⟩
abbrev S1000x729 : Shape := ⟨2, ![1000, 729]⟩

abbrev nBuf : Space → Nat
  | .hbm => 2
  | .vmem => 4
  | .smem => 0
  | _ => 0

abbrev bufTy : (tb : Table) → Fin (tcTables nBuf tb) → BufTy
  | .hbm, ⟨0, _⟩ => ⟨S200000x3, .f32⟩
  | .hbm, ⟨1, _⟩ => ⟨S200000x1093, .f32⟩
  | .local _ .vmem, ⟨0, _⟩ => ⟨S1000x3, .f32⟩
  | .local _ .vmem, ⟨1, _⟩ => ⟨S1000x3, .f32⟩
  | .local _ .vmem, ⟨2, _⟩ => ⟨S1000x1093, .f32⟩
  | .local _ .vmem, ⟨3, _⟩ => ⟨S1000x1093, .f32⟩
  | _, _ => ⟨S200000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1093 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1000x3_S1000x3_0_0 : ∀ a, (![0, 0] : Fin 2 → Nat) a + S1000x3.size a ≤ S1000x3.size a
  h_S1000x3 : 0 < S1000x3.numel
  slices_S1000x3_o0_0_S1000x1 : S1000x3.Slices ![0, 0] S1000x1
  slices_S1000x3_o0_1_S1000x1 : S1000x3.Slices ![0, 1] S1000x1
  slices_S1000x3_o0_2_S1000x1 : S1000x3.Slices ![0, 2] S1000x1
  concatenates_S1000x1_S1000x1_S1000x1_S1000x3_d1 : Shape.Concatenates [S1000x1, S1000x1, S1000x1] S1000x3 1
  broadcasts_S1000x1_S1000x3 : S1000x1.Broadcasts S1000x3
  concatenates_S1000x3_S1000x3_S1000x3_S1000x9_d1 : Shape.Concatenates [S1000x3, S1000x3, S1000x3] S1000x9 1
  broadcasts_S1000x1_S1000x9 : S1000x1.Broadcasts S1000x9
  concatenates_S1000x9_S1000x9_S1000x9_S1000x27_d1 : Shape.Concatenates [S1000x9, S1000x9, S1000x9] S1000x27 1
  broadcasts_S1000x1_S1000x27 : S1000x1.Broadcasts S1000x27
  concatenates_S1000x27_S1000x27_S1000x27_S1000x81_d1 : Shape.Concatenates [S1000x27, S1000x27, S1000x27] S1000x81 1
  broadcasts_S1000x1_S1000x81 : S1000x1.Broadcasts S1000x81
  concatenates_S1000x81_S1000x81_S1000x81_S1000x243_d1 : Shape.Concatenates [S1000x81, S1000x81, S1000x81] S1000x243 1
  broadcasts_S1000x1_S1000x243 : S1000x1.Broadcasts S1000x243
  concatenates_S1000x243_S1000x243_S1000x243_S1000x729_d1 : Shape.Concatenates [S1000x243, S1000x243, S1000x243] S1000x729 1
  concatenates_S1000x1_S1000x3_S1000x9_S1000x27_S1000x81_S1000x243_S1000x729_S1000x1093_d1 : Shape.Concatenates [S1000x1, S1000x3, S1000x9, S1000x27, S1000x81, S1000x243, S1000x729] S1000x1093 1
  inb_S1000x1093_S1000x1093_0_0 : ∀ a, (![0, 0] : Fin 2 → Nat) a + S1000x1093.size a ≤ S1000x1093.size a
  h_S1000x1093 : 0 < S1000x1093.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x3.size a ≤ S200000x3.size a
  hwx0_0 : ∀ i : grid0.Coords, EltTy.bits .f32 = 32 ∨ (Rect.block (s := S200000x3) S1000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1093.size a ≤ S200000x1093.size a
  hwx0_1 : ∀ i : grid0.Coords, EltTy.bits .f32 = 32 ∨ (Rect.block (s := S200000x1093) S1000x1093.size (cc0_transform_1 i) (hinb0_1 i)).WholeWords (EltTy.packing .f32)

variable [Facts₀]

abbrev win0_0 : Pipeline.Window sig grid0 :=
  Pipeline.Window.ofSpec (Memref.whole main_arg0) S1000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1000x1093.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S200000x3 : Shape := ⟨2, ![200000, 3]⟩
abbrev S_ : Shape := ⟨0, ![]⟩
abbrev S200000x1 : Shape := ⟨2, ![200000, 1]⟩
abbrev S200000x1x1 : Shape := ⟨3, ![200000, 1, 1]⟩
abbrev S200000x1x3 : Shape := ⟨3, ![200000, 1, 3]⟩
abbrev S200000x3x1 : Shape := ⟨3, ![200000, 3, 1]⟩
abbrev S200000x3x3 : Shape := ⟨3, ![200000, 3, 3]⟩
abbrev S200000x9 : Shape := ⟨2, ![200000, 9]⟩
abbrev S200000x9x1 : Shape := ⟨3, ![200000, 9, 1]⟩
abbrev S200000x9x3 : Shape := ⟨3, ![200000, 9, 3]⟩
abbrev S200000x27 : Shape := ⟨2, ![200000, 27]⟩
abbrev S200000x27x1 : Shape := ⟨3, ![200000, 27, 1]⟩
abbrev S200000x27x3 : Shape := ⟨3, ![200000, 27, 3]⟩
abbrev S200000x81 : Shape := ⟨2, ![200000, 81]⟩
abbrev S200000x81x1 : Shape := ⟨3, ![200000, 81, 1]⟩
abbrev S200000x81x3 : Shape := ⟨3, ![200000, 81, 3]⟩
abbrev S200000x243 : Shape := ⟨2, ![200000, 243]⟩
abbrev S200000x243x1 : Shape := ⟨3, ![200000, 243, 1]⟩
abbrev S200000x243x3 : Shape := ⟨3, ![200000, 243, 3]⟩
abbrev S200000x729 : Shape := ⟨2, ![200000, 729]⟩
abbrev S200000x1093 : Shape := ⟨2, ![200000, 1093]⟩

abbrev nBuf : Space → Nat
  | .hbm => 39
  | .vmem => 0
  | .smem => 0
  | _ => 0

abbrev bufTy : (tb : Table) → Fin (tcTables nBuf tb) → BufTy
  | .hbm, ⟨0, _⟩ => ⟨S200000x3, .f32⟩
  | .hbm, ⟨1, _⟩ => ⟨S_, .f32⟩
  | .hbm, ⟨2, _⟩ => ⟨S200000x1, .f32⟩
  | .hbm, ⟨3, _⟩ => ⟨S200000x1x1, .f32⟩
  | .hbm, ⟨4, _⟩ => ⟨S200000x1x3, .f32⟩
  | .hbm, ⟨5, _⟩ => ⟨S200000x1x3, .f32⟩
  | .hbm, ⟨6, _⟩ => ⟨S200000x1x3, .f32⟩
  | .hbm, ⟨7, _⟩ => ⟨S200000x3, .f32⟩
  | .hbm, ⟨8, _⟩ => ⟨S200000x3x1, .f32⟩
  | .hbm, ⟨9, _⟩ => ⟨S200000x1x3, .f32⟩
  | .hbm, ⟨10, _⟩ => ⟨S200000x3x3, .f32⟩
  | .hbm, ⟨11, _⟩ => ⟨S200000x3x3, .f32⟩
  | .hbm, ⟨12, _⟩ => ⟨S200000x3x3, .f32⟩
  | .hbm, ⟨13, _⟩ => ⟨S200000x9, .f32⟩
  | .hbm, ⟨14, _⟩ => ⟨S200000x9x1, .f32⟩
  | .hbm, ⟨15, _⟩ => ⟨S200000x1x3, .f32⟩
  | .hbm, ⟨16, _⟩ => ⟨S200000x9x3, .f32⟩
  | .hbm, ⟨17, _⟩ => ⟨S200000x9x3, .f32⟩
  | .hbm, ⟨18, _⟩ => ⟨S200000x9x3, .f32⟩
  | .hbm, ⟨19, _⟩ => ⟨S200000x27, .f32⟩
  | .hbm, ⟨20, _⟩ => ⟨S200000x27x1, .f32⟩
  | .hbm, ⟨21, _⟩ => ⟨S200000x1x3, .f32⟩
  | .hbm, ⟨22, _⟩ => ⟨S200000x27x3, .f32⟩
  | .hbm, ⟨23, _⟩ => ⟨S200000x27x3, .f32⟩
  | .hbm, ⟨24, _⟩ => ⟨S200000x27x3, .f32⟩
  | .hbm, ⟨25, _⟩ => ⟨S200000x81, .f32⟩
  | .hbm, ⟨26, _⟩ => ⟨S200000x81x1, .f32⟩
  | .hbm, ⟨27, _⟩ => ⟨S200000x1x3, .f32⟩
  | .hbm, ⟨28, _⟩ => ⟨S200000x81x3, .f32⟩
  | .hbm, ⟨29, _⟩ => ⟨S200000x81x3, .f32⟩
  | .hbm, ⟨30, _⟩ => ⟨S200000x81x3, .f32⟩
  | .hbm, ⟨31, _⟩ => ⟨S200000x243, .f32⟩
  | .hbm, ⟨32, _⟩ => ⟨S200000x243x1, .f32⟩
  | .hbm, ⟨33, _⟩ => ⟨S200000x1x3, .f32⟩
  | .hbm, ⟨34, _⟩ => ⟨S200000x243x3, .f32⟩
  | .hbm, ⟨35, _⟩ => ⟨S200000x243x3, .f32⟩
  | .hbm, ⟨36, _⟩ => ⟨S200000x243x3, .f32⟩
  | .hbm, ⟨37, _⟩ => ⟨S200000x729, .f32⟩
  | .hbm, ⟨38, _⟩ => ⟨S200000x1093, .f32⟩
  | _, _ => ⟨S200000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩

abbrev nD : Nat := 1
abbrev τ : Topo := Topo.v7x

variable {F : FTy → Type} [FloatOps F]

class Facts₀ : Prop where
  bcast_S_S200000x1 : S_.BroadcastsInDim S200000x1 (![] : Fin 0 → Fin S200000x1.rank)
  bcast_S200000x1_S200000x1x1_0_1 : S200000x1.BroadcastsInDim S200000x1x1 (![0, 1] : Fin 2 → Fin S200000x1x1.rank)
  bcast_S200000x3_S200000x1x3_0_2 : S200000x3.BroadcastsInDim S200000x1x3 (![0, 2] : Fin 2 → Fin S200000x1x3.rank)
  bcast_S200000x1x1_S200000x1x3_0_1_2 : S200000x1x1.BroadcastsInDim S200000x1x3 (![0, 1, 2] : Fin 3 → Fin S200000x1x3.rank)
  shapeCasts_S200000x1x3_S200000x3 : S200000x1x3.ShapeCasts S200000x3
  bcast_S200000x3_S200000x3x1_0_1 : S200000x3.BroadcastsInDim S200000x3x1 (![0, 1] : Fin 2 → Fin S200000x3x1.rank)
  bcast_S200000x3x1_S200000x3x3_0_1_2 : S200000x3x1.BroadcastsInDim S200000x3x3 (![0, 1, 2] : Fin 3 → Fin S200000x3x3.rank)
  bcast_S200000x1x3_S200000x3x3_0_1_2 : S200000x1x3.BroadcastsInDim S200000x3x3 (![0, 1, 2] : Fin 3 → Fin S200000x3x3.rank)
  shapeCasts_S200000x3x3_S200000x9 : S200000x3x3.ShapeCasts S200000x9
  bcast_S200000x9_S200000x9x1_0_1 : S200000x9.BroadcastsInDim S200000x9x1 (![0, 1] : Fin 2 → Fin S200000x9x1.rank)
  bcast_S200000x9x1_S200000x9x3_0_1_2 : S200000x9x1.BroadcastsInDim S200000x9x3 (![0, 1, 2] : Fin 3 → Fin S200000x9x3.rank)
  bcast_S200000x1x3_S200000x9x3_0_1_2 : S200000x1x3.BroadcastsInDim S200000x9x3 (![0, 1, 2] : Fin 3 → Fin S200000x9x3.rank)
  shapeCasts_S200000x9x3_S200000x27 : S200000x9x3.ShapeCasts S200000x27
  bcast_S200000x27_S200000x27x1_0_1 : S200000x27.BroadcastsInDim S200000x27x1 (![0, 1] : Fin 2 → Fin S200000x27x1.rank)
  bcast_S200000x27x1_S200000x27x3_0_1_2 : S200000x27x1.BroadcastsInDim S200000x27x3 (![0, 1, 2] : Fin 3 → Fin S200000x27x3.rank)
  bcast_S200000x1x3_S200000x27x3_0_1_2 : S200000x1x3.BroadcastsInDim S200000x27x3 (![0, 1, 2] : Fin 3 → Fin S200000x27x3.rank)
  shapeCasts_S200000x27x3_S200000x81 : S200000x27x3.ShapeCasts S200000x81
  bcast_S200000x81_S200000x81x1_0_1 : S200000x81.BroadcastsInDim S200000x81x1 (![0, 1] : Fin 2 → Fin S200000x81x1.rank)
  bcast_S200000x81x1_S200000x81x3_0_1_2 : S200000x81x1.BroadcastsInDim S200000x81x3 (![0, 1, 2] : Fin 3 → Fin S200000x81x3.rank)
  bcast_S200000x1x3_S200000x81x3_0_1_2 : S200000x1x3.BroadcastsInDim S200000x81x3 (![0, 1, 2] : Fin 3 → Fin S200000x81x3.rank)
  shapeCasts_S200000x81x3_S200000x243 : S200000x81x3.ShapeCasts S200000x243
  bcast_S200000x243_S200000x243x1_0_1 : S200000x243.BroadcastsInDim S200000x243x1 (![0, 1] : Fin 2 → Fin S200000x243x1.rank)
  bcast_S200000x243x1_S200000x243x3_0_1_2 : S200000x243x1.BroadcastsInDim S200000x243x3 (![0, 1, 2] : Fin 3 → Fin S200000x243x3.rank)
  bcast_S200000x1x3_S200000x243x3_0_1_2 : S200000x1x3.BroadcastsInDim S200000x243x3 (![0, 1, 2] : Fin 3 → Fin S200000x243x3.rank)
  shapeCasts_S200000x243x3_S200000x729 : S200000x243x3.ShapeCasts S200000x729
  concatenates_S200000x1_S200000x3_S200000x9_S200000x27_S200000x81_S200000x243_S200000x729_S200000x1093_d1 : Shape.Concatenates [S200000x1, S200000x3, S200000x9, S200000x27, S200000x81, S200000x243, S200000x729] S200000x1093 1

variable [Facts₀]

class Facts : Prop extends Facts₀ where

variable [Facts]
-- ==== Proof.Levels.lean ====
/-
  The tensor-power basis of a row of three extended reals, in two column orders.

  A row `d = (d 0, d 1, d 2)` and a seed `o` give, level by level, the products `o · d a₁ · d a₂ ⋯ d a_l` over all
  words `a₁ … a_l` of letters in `{0, 1, 2}`: level `l` has `3 ^ l` columns. One order puts the NEWEST letter last
  (column `q` of level `l + 1` is column `q / 3` of level `l` times component `q % 3`); the other puts it first
  (column `q` of level `l + 1` is column `q % 3 ^ l` of level `l` times component `q / 3 ^ l`). Column `q` read
  in base three names the same multiset of letters in both orders, the words being mirror images of one another,
  so the two columns are one product: multiplication on the extended reals is commutative and associative, and
  nothing else is used (no distributivity, no cancelling: no finiteness).

  The basis of a row is the levels `0 … 6` side by side: `1 + 3 + 9 + 27 + 81 + 243 + 729 = 1093` columns, level `l`
  starting at column `(3 ^ l - 1) / 2`.
-/
import Idealize.ShloMosaic.PureOps.Ideal
import Idealize.ShloMosaic.Lib.ValueIdx

noncomputable section

namespace Cert.Levels

open Idealize.ShloMosaic Idealize.ShloMosaic.ValueIdx

/-- The seed of every level: the float word of `1.0`, read as an extended real. Both programs spell this same word, and it is
    never evaluated: the levels are products with `one` as their first factor on both sides. -/
abbrev one : EReal := Ideal.ofBits .f32 0x3F800000#32

/-- Component `j mod 3` of a row. -/
def comp (d : Fin 3 → EReal) (j : ℕ) : EReal := d ⟨j % 3, Nat.mod_lt _ (by decide)⟩

/-- A component depends on its number modulo three only. -/
theorem comp_mod (d : Fin 3 → EReal) (q k : ℕ) : comp d (q % (3 * k)) = comp d q := by
  unfold comp
  exact congrArg d (Fin.ext (Nat.mod_mul_right_mod q 3 k))

/-- The component a literal coordinate names. -/
theorem comp_fin (d : Fin 3 → EReal) (j : Fin 3) : comp d j.val = d j := by
  unfold comp
  exact congrArg d (Fin.ext (Nat.mod_eq_of_lt j.isLt))

/-- Level `l`, newest letter LAST: column `q` of level `l + 1` is column `q / 3` of level `l` times component `q % 3`. -/
def refLevel (o : EReal) (d : Fin 3 → EReal) : ℕ → ℕ → EReal
  | 0, _ => o
  | l + 1, q => refLevel o d l (q / 3) * comp d q

/-- Level `l`, newest letter FIRST: column `q` of level `l + 1` is column `q % 3 ^ l` of level `l` times component
    `q / 3 ^ l`. -/
def kerLevel (o : EReal) (d : Fin 3 → EReal) : ℕ → ℕ → EReal
  | 0, _ => o
  | l + 1, q => kerLevel o d l (q % 3 ^ l) * comp d (q / 3 ^ l)

theorem refLevel_zero (o : EReal) (d : Fin 3 → EReal) (q : ℕ) : refLevel o d 0 q = o := rfl

theorem refLevel_succ (o : EReal) (d : Fin 3 → EReal) (l q : ℕ) :
    refLevel o d (l + 1) q = refLevel o d l (q / 3) * comp d q := rfl

theorem kerLevel_zero (o : EReal) (d : Fin 3 → EReal) (q : ℕ) : kerLevel o d 0 q = o := rfl

theorem kerLevel_succ (o : EReal) (d : Fin 3 → EReal) (l q : ℕ) :
    kerLevel o d (l + 1) q = kerLevel o d l (q % 3 ^ l) * comp d (q / 3 ^ l) := rfl

/-- The newest-letter-last level also splits at its OLDEST letter: stripping the leading base-three digit of the column
    leaves a column of the level below, and the stripped digit's component is one more factor. Moving that factor
    past the newest one is `mul_right_comm`. -/
theorem refLevel_split (o : EReal) (d : Fin 3 → EReal) :
    ∀ l q : ℕ, refLevel o d (l + 1) q = refLevel o d l (q % 3 ^ l) * comp d (q / 3 ^ l)
  | 0, q => by
    rw [refLevel_succ, refLevel_zero, refLevel_zero, pow_zero, Nat.div_one]
  | l + 1, q => by
    have h1 : q % 3 ^ (l + 1) / 3 = q / 3 % 3 ^ l := by
      rw [pow_succ']; exact Nat.mod_mul_right_div_self q 3 (3 ^ l)
    have h2 : comp d (q % 3 ^ (l + 1)) = comp d q := by
      rw [pow_succ']; exact comp_mod d q (3 ^ l)
    have h3 : q / 3 ^ (l + 1) = q / 3 / 3 ^ l := by
      rw [pow_succ', Nat.div_div_eq_div_mul]
    rw [refLevel_succ o d (l + 1) q, refLevel_split o d l (q / 3), refLevel_succ o d l (q % 3 ^ (l + 1)), h1, h2, h3]
    exact mul_right_comm _ _ _

/-- THE LAW: the two column orders give the same levels. -/
theorem kerLevel_eq_refLevel (o : EReal) (d : Fin 3 → EReal) : ∀ l q : ℕ, kerLevel o d l q = refLevel o d l q
  | 0, _ => rfl
  | l + 1, q => by
    rw [kerLevel_succ, kerLevel_eq_refLevel o d l, refLevel_split]

/-- Column `q` of the levels `0 … 6` set side by side. -/
def row (lvl : ℕ → ℕ → EReal) (q : ℕ) : EReal :=
  if q < 1 then lvl 0 q else if q < 4 then lvl 1 (q - 1) else if q < 13 then lvl 2 (q - 4)
  else if q < 40 then lvl 3 (q - 13) else if q < 121 then lvl 4 (q - 40) else if q < 364 then lvl 5 (q - 121)
  else lvl 6 (q - 364)

theorem row_congr {f g : ℕ → ℕ → EReal} (h : ∀ l q, f l q = g l q) (q : ℕ) : row f q = row g q := by
  unfold row; simp only [h]

/-- Row `n` of a `200000 × 3` array, as a function of the component. -/
def rowOf (x : (⟨2, ![200000, 3]⟩ : Shape).Idx → EReal) (n : Fin 200000) : Fin 3 → EReal := fun j => x (ix2 n j)

/-- THE RESULT: entry `(n, q)` of the `200000 × 1093` array is column `q` of the basis of row `n` of `x`, seeded by `o`. -/
def basis (o : EReal) (x : (⟨2, ![200000, 3]⟩ : Shape).Idx → EReal) : (⟨2, ![200000, 1093]⟩ : Shape).Idx → EReal :=
  fun i => row (refLevel o (rowOf x ⟨(i 0).val, idx2_lt0 i⟩)) (i 1).val

theorem basis_apply (o : EReal) (x : (⟨2, ![200000, 3]⟩ : Shape).Idx → EReal) (n : Fin 200000) (q : Fin 1093) :
    basis o x (ix2 n q) = row (refLevel o (rowOf x n)) q.val := rfl

end Cert.Levels

end
-- ==== Proof.KerRead.lean ====
/-
  The kernel body's payload read at an entry.

  The body loads a `1000 × 3` block and builds, for each of its rows `d`, the levels of the tensor powers one at a time.
  Level 0 is a column of ones. Level `l + 1` is three copies of level `l` set side by side, copy `k` multiplied by
  component `k` of the row (that component cut out as a column and spread over the `3 ^ l` columns): column `q` of
  level `l + 1` lies in copy `q / 3 ^ l` at its column `q % 3 ^ l`, so it is column `q % 3 ^ l` of level `l` times
  component `q / 3 ^ l`, the newest letter first. The stored block is the levels `0 … 6` side by side. Every step is a
  statement about WHICH element is read (a slice, a spread, a join of pieces); the only arithmetic is one product
  per level, left as it stands.
-/
import proofs.«119369_j84851373899904_2_alg».proof.Proof.Gen.KernelIdeal.Skeleton
import proofs.«119369_j84851373899904_2_alg».proof.Proof.Levels
import Idealize.ShloMosaic.Lib.Pipeline.Value
import Idealize.ShloMosaic.Lib.ValueIdx

noncomputable section
namespace Cert.KerRead
open Cert.KernelIdeal Cert.KernelIdeal.Gen Idealize.ShloMosaic Idealize.ShloMosaic.ValueIdx Cert.Levels

/-- Row `p` of a loaded `1000 × 3` block, as a function of the component. -/
def blockRow (v0 : Vec Ideal S1000x3 .f32) (p : Fin 1000) : Fin 3 → EReal := fun j => v0 (ix2 p j)

/-- Level 0 is the constant column of ones: the seed. -/
theorem level0 (d : Fin 3 → EReal) (p : Fin 1000) (q : Fin 1) : k0_pay2 (F := Ideal) (ix2 p q) = kerLevel one d 0 q.val := rfl

/-- Column `c` of the block, cut out as a `1000 × 1` column, read at `(p, 0)`, is entry `(p, c)` of the block. -/
private theorem col_apply (v0 : Vec Ideal S1000x3 .f32) (c : Fin 3) (hs : S1000x3.Slices ![0, c.val] S1000x1) (p : Fin 1000) :
    extractStridedSlice S1000x1 ![0, c.val] v0 hs (ix2 p (0 : Fin 1)) = v0 (ix2 p c) := by
  refine extractStridedSlice_apply _ v0 hs (ix2 p (0 : Fin 1)) (ix2 p c) ?_
  intro a; match a with | ⟨0, _⟩ => exact (Nat.zero_add _).symm | ⟨1, _⟩ => rfl

/-- That column spread over any width, read at `(p, r)`, is still entry `(p, c)` of the block. -/
private theorem bcol_apply (w : ℕ) (v0 : Vec Ideal S1000x3 .f32) (c : Fin 3)
    (hs : S1000x3.Slices ![0, c.val] S1000x1) (hb : S1000x1.Broadcasts ⟨2, ![1000, w]⟩) (p : Fin 1000) (r : Fin w) :
    broadcastTo (⟨2, ![1000, w]⟩ : Shape) (extractStridedSlice S1000x1 ![0, c.val] v0 hs) hb (ix2 p r) = v0 (ix2 p c) := by
  refine (broadcastTo_apply _ hb (ix2 p r) (ix2 p (0 : Fin 1)) ?_).trans (col_apply v0 c hs p)
  intro a; match a with | ⟨0, _⟩ => rfl | ⟨1, _⟩ => rfl

/-- One step up: three copies of the level below, copy `k` multiplied by component `k` of the row, set side by side.
    Column `q` of the result lies in copy `q / w` at its column `q % w`, so it is that column of the level below times
    that component. -/
private theorem step (w W : ℕ) (hW : W = 3 * w) (prev : FVec Ideal ⟨2, ![1000, w]⟩ .f32) (v0 : Vec Ideal S1000x3 .f32)
    (hb : S1000x1.Broadcasts ⟨2, ![1000, w]⟩)
    (hc : Shape.Concatenates [⟨2, ![1000, w]⟩, ⟨2, ![1000, w]⟩, ⟨2, ![1000, w]⟩] ⟨2, ![1000, W]⟩ 1)
    (h0 : S1000x3.Slices ![0, 0] S1000x1) (h1 : S1000x3.Slices ![0, 1] S1000x1) (h2 : S1000x3.Slices ![0, 2] S1000x1)
    (p : Fin 1000) (q : Fin W) (hq : q.val % w < w) (hd : q.val / w < 3) :
    concatenate (⟨2, ![1000, W]⟩ : Shape) 1
      [⟨⟨2, ![1000, w]⟩, mulf prev (broadcastTo ⟨2, ![1000, w]⟩ (extractStridedSlice S1000x1 ![0, 0] v0 h0) hb)⟩,
       ⟨⟨2, ![1000, w]⟩, mulf prev (broadcastTo ⟨2, ![1000, w]⟩ (extractStridedSlice S1000x1 ![0, 1] v0 h1) hb)⟩,
       ⟨⟨2, ![1000, w]⟩, mulf prev (broadcastTo ⟨2, ![1000, w]⟩ (extractStridedSlice S1000x1 ![0, 2] v0 h2) hb)⟩] hc (ix2 p q)
      = prev (ix2 p ⟨q.val % w, hq⟩) * v0 (ix2 p ⟨q.val / w, hd⟩) := by
  have hql : q.val < 3 * w := hW ▸ q.isLt
  by_cases c1 : q.val < w
  · have hdiv : q.val / w = 0 := Nat.div_eq_of_lt c1
    have hmod : q.val % w = q.val := Nat.mod_eq_of_lt c1
    refine Eq.trans (concatenate_apply_piece (1 : Fin 2) _ _ (ix2 p q) 0 (by exact (by decide : (0:ℕ) < 3)) _ _ (by rfl) (by rfl) 0 (by rfl)
      (ix2 p ⟨q.val, c1⟩) (fun b hb => match b with | ⟨0, _⟩ => rfl | ⟨1, _⟩ => absurd rfl hb) (Nat.zero_add _)) ?_
    refine congrArg₂ (· * ·) (congrArg prev (congrArg (ix2 p) (Fin.ext hmod.symm))) ?_
    exact (bcol_apply w v0 ⟨0, by decide⟩ h0 hb p _).trans (congrArg v0 (congrArg (ix2 p) (Fin.ext hdiv.symm)))
  · by_cases c2 : q.val < w + w
    · have hdiv : q.val / w = 1 := Nat.div_eq_of_lt_le (by omega) (by omega)
      have hmod : q.val % w = q.val - w := by rw [Nat.mod_def, hdiv, Nat.mul_one]
      refine Eq.trans (concatenate_apply_piece (1 : Fin 2) _ _ (ix2 p q) 1 (by exact (by decide : (1:ℕ) < 3)) _ _ (by rfl) (by rfl) w (by rfl)
        (ix2 p (⟨q.val - w, by omega⟩ : Fin w)) (fun b hb => match b with | ⟨0, _⟩ => rfl | ⟨1, _⟩ => absurd rfl hb)
        (by show w + (q.val - w) = q.val; omega)) ?_
      refine congrArg₂ (· * ·) (congrArg prev (congrArg (ix2 p) (Fin.ext hmod.symm))) ?_
      exact (bcol_apply w v0 ⟨1, by decide⟩ h1 hb p _).trans (congrArg v0 (congrArg (ix2 p) (Fin.ext hdiv.symm)))
    · have hdiv : q.val / w = 2 := Nat.div_eq_of_lt_le (by omega) (by omega)
      have hmod : q.val % w = q.val - (w + w) := by rw [Nat.mod_def, hdiv, Nat.mul_two]
      refine Eq.trans (concatenate_apply_piece (1 : Fin 2) _ _ (ix2 p q) 2 (by exact (by decide : (2:ℕ) < 3)) _ _ (by rfl) (by rfl) (w + w) (by rfl)
        (ix2 p (⟨q.val - (w + w), by omega⟩ : Fin w)) (fun b hb => match b with | ⟨0, _⟩ => rfl | ⟨1, _⟩ => absurd rfl hb)
        (by show w + w + (q.val - (w + w)) = q.val; omega)) ?_
      refine congrArg₂ (· * ·) (congrArg prev (congrArg (ix2 p) (Fin.ext hmod.symm))) ?_
      exact (bcol_apply w v0 ⟨2, by decide⟩ h2 hb p _).trans (congrArg v0 (congrArg (ix2 p) (Fin.ext hdiv.symm)))

/-- Level 1: the seed times each of the three components, set side by side: column `q` is `one * d q`. -/
theorem level1 (v0 : Vec Ideal S1000x3 .f32) (p : Fin 1000) (q : Fin 3) : k0_pay3 v0 (ix2 p q) = kerLevel one (blockRow v0 p) 1 q.val := by
  have key : ∀ c : Fin 3, one * v0 (ix2 p c) = kerLevel one (blockRow v0 p) 1 c.val := fun c => by
    rw [kerLevel_succ, kerLevel_zero, pow_zero, Nat.div_one, comp_fin]; rfl
  unfold k0_pay3
  match q with
  | ⟨0, hq⟩ =>
    refine Eq.trans (concatenate_apply_piece (1 : Fin 2) _ _ (ix2 p (⟨0, hq⟩ : Fin 3)) 0 (by exact (by decide : (0:ℕ) < 3)) _ _ (by rfl) (by rfl) 0 (by rfl)
      (ix2 p (0 : Fin 1)) (fun b hb => match b with | ⟨0, _⟩ => rfl | ⟨1, _⟩ => absurd rfl hb) (by rfl)) ?_
    exact (congrArg (one * ·) (col_apply v0 ⟨0, by decide⟩ _ p)).trans (key ⟨0, hq⟩)
  | ⟨1, hq⟩ =>
    refine Eq.trans (concatenate_apply_piece (1 : Fin 2) _ _ (ix2 p (⟨1, hq⟩ : Fin 3)) 1 (by exact (by decide : (1:ℕ) < 3)) _ _ (by rfl) (by rfl) 1 (by rfl)
      (ix2 p (0 : Fin 1)) (fun b hb => match b with | ⟨0, _⟩ => rfl | ⟨1, _⟩ => absurd rfl hb) (by rfl)) ?_
    exact (congrArg (one * ·) (col_apply v0 ⟨1, by decide⟩ _ p)).trans (key ⟨1, hq⟩)
  | ⟨2, hq⟩ =>
    refine Eq.trans (concatenate_apply_piece (1 : Fin 2) _ _ (ix2 p (⟨2, hq⟩ : Fin 3)) 2 (by exact (by decide : (2:ℕ) < 3)) _ _ (by rfl) (by rfl) 2 (by rfl)
      (ix2 p (0 : Fin 1)) (fun b hb => match b with | ⟨0, _⟩ => rfl | ⟨1, _⟩ => absurd rfl hb) (by rfl)) ?_
    exact (congrArg (one * ·) (col_apply v0 ⟨2, by decide⟩ _ p)).trans (key ⟨2, hq⟩)

/-- A level from the one below: if the three copies multiply level `l` (width `w = 3 ^ l`), the columns set side by side
    are level `l + 1`, because column `q` is column `q % 3 ^ l` of level `l` times component `q / 3 ^ l`. -/
private theorem level_up (l w W : ℕ) (hw : w = 3 ^ l) (hW : W = 3 * w) (prev : FVec Ideal ⟨2, ![1000, w]⟩ .f32)
    (v0 : Vec Ideal S1000x3 .f32) (hb : S1000x1.Broadcasts ⟨2, ![1000, w]⟩)
    (hc : Shape.Concatenates [⟨2, ![1000, w]⟩, ⟨2, ![1000, w]⟩, ⟨2, ![1000, w]⟩] ⟨2, ![1000, W]⟩ 1)
    (h0 : S1000x3.Slices ![0, 0] S1000x1) (h1 : S1000x3.Slices ![0, 1] S1000x1) (h2 : S1000x3.Slices ![0, 2] S1000x1)
    (p : Fin 1000) (hprev : ∀ r : Fin w, prev (ix2 p r) = kerLevel one (blockRow v0 p) l r.val) (q : Fin W) :
    concatenate (⟨2, ![1000, W]⟩ : Shape) 1
      [⟨⟨2, ![1000, w]⟩, mulf prev (broadcastTo ⟨2, ![1000, w]⟩ (extractStridedSlice S1000x1 ![0, 0] v0 h0) hb)⟩,
       ⟨⟨2, ![1000, w]⟩, mulf prev (broadcastTo ⟨2, ![1000, w]⟩ (extractStridedSlice S1000x1 ![0, 1] v0 h1) hb)⟩,
       ⟨⟨2, ![1000, w]⟩, mulf prev (broadcastTo ⟨2, ![1000, w]⟩ (extractStridedSlice S1000x1 ![0, 2] v0 h2) hb)⟩] hc (ix2 p q)
      = kerLevel one (blockRow v0 p) (l + 1) q.val := by
  subst hw
  have hwpos : 0 < 3 ^ l := Nat.pow_pos (by decide)
  have hql : q.val < 3 * 3 ^ l := hW ▸ q.isLt
  have hq : q.val % 3 ^ l < 3 ^ l := Nat.mod_lt _ hwpos
  have hd : q.val / 3 ^ l < 3 := Nat.div_lt_of_lt_mul (by rw [Nat.mul_comm]; exact hql)
  refine (step (3 ^ l) W hW prev v0 hb hc h0 h1 h2 p q hq hd).trans ?_
  rw [kerLevel_succ]
  exact congrArg₂ (· * ·) (hprev ⟨q.val % 3 ^ l, hq⟩) (comp_fin (blockRow v0 p) ⟨q.val / 3 ^ l, hd⟩).symm

/-- Level 2: nine columns, column `q` is column `q % 3` of level 1 times component `q / 3`. -/
theorem level2 (v0 : Vec Ideal S1000x3 .f32) (p : Fin 1000) (q : Fin 9) : k0_pay4 v0 (ix2 p q) = kerLevel one (blockRow v0 p) 2 q.val :=
  level_up 1 3 9 (by norm_num) (by norm_num) (k0_pay3 v0) v0 broadcasts_S1000x1_S1000x3 concatenates_S1000x3_S1000x3_S1000x3_S1000x9_d1
    slices_S1000x3_o0_0_S1000x1 slices_S1000x3_o0_1_S1000x1 slices_S1000x3_o0_2_S1000x1 p (level1 v0 p) q

/-- Level 3: twenty-seven columns, column `q` is column `q % 9` of level 2 times component `q / 9`. -/
theorem level3 (v0 : Vec Ideal S1000x3 .f32) (p : Fin 1000) (q : Fin 27) : k0_pay5 v0 (ix2 p q) = kerLevel one (blockRow v0 p) 3 q.val :=
  level_up 2 9 27 (by norm_num) (by norm_num) (k0_pay4 v0) v0 broadcasts_S1000x1_S1000x9 concatenates_S1000x9_S1000x9_S1000x9_S1000x27_d1
    slices_S1000x3_o0_0_S1000x1 slices_S1000x3_o0_1_S1000x1 slices_S1000x3_o0_2_S1000x1 p (level2 v0 p) q

/-- Level 4: eighty-one columns, column `q` is column `q % 27` of level 3 times component `q / 27`. -/
theorem level4 (v0 : Vec Ideal S1000x3 .f32) (p : Fin 1000) (q : Fin 81) : k0_pay6 v0 (ix2 p q) = kerLevel one (blockRow v0 p) 4 q.val :=
  level_up 3 27 81 (by norm_num) (by norm_num) (k0_pay5 v0) v0 broadcasts_S1000x1_S1000x27 concatenates_S1000x27_S1000x27_S1000x27_S1000x81_d1
    slices_S1000x3_o0_0_S1000x1 slices_S1000x3_o0_1_S1000x1 slices_S1000x3_o0_2_S1000x1 p (level3 v0 p) q

/-- Level 5: 243 columns, column `q` is column `q % 81` of level 4 times component `q / 81`. -/
theorem level5 (v0 : Vec Ideal S1000x3 .f32) (p : Fin 1000) (q : Fin 243) : k0_pay7 v0 (ix2 p q) = kerLevel one (blockRow v0 p) 5 q.val :=
  level_up 4 81 243 (by norm_num) (by norm_num) (k0_pay6 v0) v0 broadcasts_S1000x1_S1000x81 concatenates_S1000x81_S1000x81_S1000x81_S1000x243_d1
    slices_S1000x3_o0_0_S1000x1 slices_S1000x3_o0_1_S1000x1 slices_S1000x3_o0_2_S1000x1 p (level4 v0 p) q

/-- Level 6: 729 columns, the three copies of level 5, each times one component, set side by side: column `q` is column
    `q % 243` of level 5 times component `q / 243`. -/
private theorem level6 (v0 : Vec Ideal S1000x3 .f32) (p : Fin 1000) (q : Fin 729) :
    concatenate S1000x729 1 [⟨S1000x243, k0_pay8 v0⟩, ⟨S1000x243, k0_pay9 v0⟩,
        ⟨S1000x243, mulf (k0_pay7 v0) (broadcastTo S1000x243 (k0_pay10 v0) broadcasts_S1000x1_S1000x243)⟩]
        concatenates_S1000x243_S1000x243_S1000x243_S1000x729_d1 (ix2 p q)
      = kerLevel one (blockRow v0 p) 6 q.val :=
  level_up 5 243 729 (by norm_num) (by norm_num) (k0_pay7 v0) v0 broadcasts_S1000x1_S1000x243 concatenates_S1000x243_S1000x243_S1000x243_S1000x729_d1
    slices_S1000x3_o0_0_S1000x1 slices_S1000x3_o0_1_S1000x1 slices_S1000x3_o0_2_S1000x1 p (level5 v0 p) q

/-- The stored block: levels 0 … 6 side by side (widths 1, 3, 9, 27, 81, 243, 729, starting at columns 0, 1, 4, 13, 40, 121,
    364). Column `q` lies in the one level whose span holds it, at `q` less that level's first column. -/
theorem payload (v0 : Vec Ideal S1000x3 .f32) (p : Fin 1000) (q : Fin 1093) :
    k0_pay1 (k0_pay2 (F := Ideal)) (k0_pay3 v0) (k0_pay4 v0) (k0_pay5 v0) (k0_pay6 v0) (k0_pay7 v0) (k0_pay8 v0) (k0_pay9 v0) (k0_pay10 v0) (ix2 p q)
      = row (kerLevel one (blockRow v0 p)) q.val := by
  have hq : q.val < 1093 := q.isLt
  unfold k0_pay1 row
  by_cases c0 : q.val < 1
  · rw [if_pos c0]
    refine Eq.trans (concatenate_apply_piece (1 : Fin 2) _ _ (ix2 p q) 0 (by exact (by decide : (0:ℕ) < 7)) _ _ (by rfl) (by rfl) 0 (by rfl)
      (ix2 p (⟨q.val - 0, by omega⟩ : Fin 1)) (fun b hb => match b with | ⟨0, _⟩ => rfl | ⟨1, _⟩ => absurd rfl hb)
      (by show 0 + (q.val - 0) = q.val; omega)) ?_
    exact level0 (blockRow v0 p) p _
  rw [if_neg c0]
  by_cases c1 : q.val < 4
  · rw [if_pos c1]
    refine Eq.trans (concatenate_apply_piece (1 : Fin 2) _ _ (ix2 p q) 1 (by exact (by decide : (1:ℕ) < 7)) _ _ (by rfl) (by rfl) 1 (by rfl)
      (ix2 p (⟨q.val - 1, by omega⟩ : Fin 3)) (fun b hb => match b with | ⟨0, _⟩ => rfl | ⟨1, _⟩ => absurd rfl hb)
      (by show 1 + (q.val - 1) = q.val; omega)) ?_
    exact level1 v0 p _
  rw [if_neg c1]
  by_cases c2 : q.val < 13
  · rw [if_pos c2]
    refine Eq.trans (concatenate_apply_piece (1 : Fin 2) _ _ (ix2 p q) 2 (by exact (by decide : (2:ℕ) < 7)) _ _ (by rfl) (by rfl) 4 (by rfl)
      (ix2 p (⟨q.val - 4, by omega⟩ : Fin 9)) (fun b hb => match b with | ⟨0, _⟩ => rfl | ⟨1, _⟩ => absurd rfl hb)
      (by show 4 + (q.val - 4) = q.val; omega)) ?_
    exact level2 v0 p _
  rw [if_neg c2]
  by_cases c3 : q.val < 40
  · rw [if_pos c3]
    refine Eq.trans (concatenate_apply_piece (1 : Fin 2) _ _ (ix2 p q) 3 (by exact (by decide : (3:ℕ) < 7)) _ _ (by rfl) (by rfl) 13 (by rfl)
      (ix2 p (⟨q.val - 13, by omega⟩ : Fin 27)) (fun b hb => match b with | ⟨0, _⟩ => rfl | ⟨1, _⟩ => absurd rfl hb)
      (by show 13 + (q.val - 13) = q.val; omega)) ?_
    exact level3 v0 p _
  rw [if_neg c3]
  by_cases c4 : q.val < 121
  · rw [if_pos c4]
    refine Eq.trans (concatenate_apply_piece (1 : Fin 2) _ _ (ix2 p q) 4 (by exact (by decide : (4:ℕ) < 7)) _ _ (by rfl) (by rfl) 40 (by rfl)
      (ix2 p (⟨q.val - 40, by omega⟩ : Fin 81)) (fun b hb => match b with | ⟨0, _⟩ => rfl | ⟨1, _⟩ => absurd rfl hb)
      (by show 40 + (q.val - 40) = q.val; omega)) ?_
    exact level4 v0 p _
  rw [if_neg c4]
  by_cases c5 : q.val < 364
  · rw [if_pos c5]
    refine Eq.trans (concatenate_apply_piece (1 : Fin 2) _ _ (ix2 p q) 5 (by exact (by decide : (5:ℕ) < 7)) _ _ (by rfl) (by rfl) 121 (by rfl)
      (ix2 p (⟨q.val - 121, by omega⟩ : Fin 243)) (fun b hb => match b with | ⟨0, _⟩ => rfl | ⟨1, _⟩ => absurd rfl hb)
      (by show 121 + (q.val - 121) = q.val; omega)) ?_
    exact level5 v0 p _
  rw [if_neg c5]
  refine Eq.trans (concatenate_apply_piece (1 : Fin 2) _ _ (ix2 p q) 6 (by exact (by decide : (6:ℕ) < 7)) _ _ (by rfl) (by rfl) 364 (by rfl)
    (ix2 p (⟨q.val - 364, by omega⟩ : Fin 729)) (fun b hb => match b with | ⟨0, _⟩ => rfl | ⟨1, _⟩ => absurd rfl hb)
    (by show 364 + (q.val - 364) = q.val; omega)) ?_
  exact level6 v0 p _

end Cert.KerRead
end
-- ==== Proof.Blocks.lean ====
/-
  From blocks to the array: the kernel's result array after its run.

  The kernel walks the `200000 × 3` argument in 200 blocks of 1000 rows; at point `t` it loads rows
  `1000 t … 1000 t + 999`, computes for each row the levels `0 … 6` of its tensor powers side by side (1093 columns),
  and writes them back as rows `1000 t … 1000 t + 999` of the `200000 × 1093` result. Rows are independent, so what a
  point writes is a restriction of ONE whole-array function of the argument, `Cert.Levels.basis`; the 200 blocks
  cover the result array, so after the run the array IS that function.

  The body's payload read at an entry is `Cert.KerRead.payload` (levels in the newest-letter-first column order); the
  basis is stated in the newest-letter-last order; `Cert.Levels.kerLevel_eq_refLevel` joins the two.
-/
import proofs.«119369_j84851373899904_2_alg».proof.Proof.Gen.KernelIdeal.Value
import proofs.«119369_j84851373899904_2_alg».proof.Proof.Levels
import proofs.«119369_j84851373899904_2_alg».proof.Proof.KerRead
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.Levels
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 200 grid points: point `t` takes row block `t`, column block `0`, of both
    the argument (blocks of 1000 × 3) and the result (blocks of 1000 × 1093). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- WHAT ONE POINT COMPUTES, over plain variables: if the loaded block `x0` holds rows `1000 T … 1000 T + 999` of an
    array `X`, the body's payload at `(p, q)` is entry `(1000 T + p, q)` of the basis of `X`. The payload's levels are in
    the newest-letter-first order and the basis's in the newest-letter-last order: `kerLevel_eq_refLevel` joins them. -/
theorem point_eq (x0 : Vec Ideal S1000x3 .f32) (X : S200000x3.Idx → EReal) (T : ℕ) (hT : T < 200)
    (hx : ∀ (p : Fin 1000) (j : Fin 3), x0 (ix2 p j) = X (ix2 (⟨T * 1000 + p.val, by have := p.isLt; omega⟩ : Fin 200000) j))
    (p : Fin 1000) (q : Fin 1093) :
    k0_pay1 (k0_pay2 (F := Ideal)) (k0_pay3 x0) (k0_pay4 x0) (k0_pay5 x0) (k0_pay6 x0) (k0_pay7 x0) (k0_pay8 x0) (k0_pay9 x0)
        (k0_pay10 x0) (ix2 p q)
      = basis one X (ix2 (⟨T * 1000 + p.val, by have := p.isLt; omega⟩ : Fin 200000) q) := by
  rw [Cert.KerRead.payload x0 p q, basis_apply]
  have hrow : Cert.KerRead.blockRow x0 p = rowOf X ⟨T * 1000 + p.val, by have := p.isLt; omega⟩ := funext fun j => hx p j
  rw [hrow]
  exact row_congr (kerLevel_eq_refLevel one _) q.val

/-- The argument window's block at point `t` is rows `1000 t … 1000 t + 999` of the argument array. -/
theorem iblk_apply (c : Dev nD) (t : Fin cfg0.N) (p : Fin 1000) (j : Fin 3) (ht : t.val < 200) :
    (iblk m c 0 t : Vec Ideal S1000x3 .f32) (ix2 p j)
      = (V m c main_arg0 : S200000x3.Idx → EReal) (ix2 (⟨t.val * 1000 + p.val, by have := p.isLt; omega⟩ : Fin 200000) j) := by
  obtain ⟨e0, e1, -, -⟩ := idx_facts t
  unfold iblk
  rw [View.read_apply]
  show V m c main_arg0 _ = V m c main_arg0 _
  congr 1
  funext a
  apply Fin.ext
  match a with
  | ⟨0, _⟩ => show win0_0.index t 0 * 1000 + 1 * p.val = t.val * 1000 + p.val; rw [e0]; omega
  | ⟨1, _⟩ => show win0_0.index t 1 * 3 + 1 * j.val = j.val; rw [e1]; omega

/-- WHAT POINT `t` WRITES BACK is block `t` of the basis of the argument array. -/
theorem flushed_eq (c : Dev nD) (t : Fin cfg0.N) :
    (dats m 0 c).flushed 1 t = ((cfg0.win 1).blk t).view.read (Elt Ideal) (basis one (V m c main_arg0)) := by
  have ht : t.val < 200 := Nat.lt_of_lt_of_eq t.isLt N_0
  show (cfg0.win 1).cut (grid0.coords t) ((dats m 0 c).after 1 t) = _
  rw [after0_1]
  unfold out0_1
  rw [View.canon_unit_zero hz]
  simp only [View.ld_unit_zero (S := S1000x3) hz]
  obtain ⟨-, -, e2, e3⟩ := idx_facts t
  funext y
  obtain ⟨p, q, rfl⟩ : ∃ (p : Fin 1000) (q : Fin 1093), y = ix2 p q := ⟨y 0, y 1, eq_ix2 y⟩
  refine (point_eq (iblk m c 0 t) (V m c main_arg0) t.val ht (fun p j => iblk_apply m c t p j ht) p q).trans ?_
  rw [View.read_apply]
  refine congrArg (basis one (V m c main_arg0)) ?_
  funext a
  apply Fin.ext
  match a with
  | ⟨0, _⟩ => show t.val * 1000 + p.val = win0_1.index t 0 * 1000 + 1 * p.val; rw [e2]; omega
  | ⟨1, _⟩ => show q.val = win0_1.index t 1 * 1093 + 1 * q.val; rw [e3]; omega

/-- An index of the result array is in point `t`'s block iff each coordinate is in the block's range on its axis. -/
theorem mem_blk (t : Fin cfg0.N) (i : S200000x1093.Idx) :
    i ∈ ((cfg0.win 1).blk t).view.set ↔ ∀ a : Fin 2, win0_1.index t a * S1000x1093.size a ≤ (i a).val ∧ (i a).val < win0_1.index t a * S1000x1093.size a + S1000x1093.size a := by
  show i ∈ ((View.whole main_v0).slice (win0_1.rect t)).set ↔ _
  rw [View.set_slice_whole, Rect.mem_set_unit]
  exact Iff.rfl

/-- THE RESULT ARRAY after the run is the basis of the argument array: the 200 blocks of 1000 rows cover it, row `r`
    lying in the block of point `r / 1000`. -/
theorem final (c : Dev nD) : (dats m 0 c).arrAt 1 cfg0.N = basis one (V m c main_arg0) :=
  (dats m 0 c).arrAt_eq_of_cover 1 (basis one (V m c main_arg0)) (fun t _ => flushed_eq m c t) fun i => by
    have h0 : (i 0).val < 200000 := (i 0).isLt
    have h1 : (i 1).val < 1093 := (i 1).isLt
    have hN : cfg0.N = 200 := N_0
    let t : Fin cfg0.N := ⟨(i 0).val / 1000, by rw [hN]; omega⟩
    obtain ⟨-, -, e2, e3⟩ := idx_facts t
    refine ⟨t, flush0_1 t, ?_⟩
    rw [mem_blk]
    intro a
    match a with
    | ⟨0, _⟩ => show win0_1.index t 0 * 1000 ≤ (i 0).val ∧ (i 0).val < win0_1.index t 0 * 1000 + 1000
                rw [e2]; show (i 0).val / 1000 * 1000 ≤ (i 0).val ∧ (i 0).val < (i 0).val / 1000 * 1000 + 1000; omega
    | ⟨1, _⟩ => show win0_1.index t 1 * 1093 ≤ (i 1).val ∧ (i 1).val < win0_1.index t 1 * 1093 + 1093
                rw [e3]; omega

/-- The kernel's run, read: the result array ends at the basis of the argument array, the argument unchanged. -/
theorem run : θ_run defs (onTc (τ := τ) (main (F := Ideal))) ⟨m, fun _ => 0, ρ⟩ fun r => ∀ c : Dev nD,
      r.2.mem ((c : Thread nD τ).loc main_v0) = basis one (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Cert.KernelIdeal.Value.run_blocks m ρ)

end Cert.KernelIdeal.Blocks

end
-- ==== Proof.RefRead.lean ====
/-
  The reference program read level by level.

  The reference builds the tensor-power basis of each row `d` of a `200000 × 3` array one level at a time. Level 0 is
  the constant one broadcast to a single column. Level `l + 1` is level `l` with a new last axis of three (each column
  repeated three times) multiplied elementwise by the row repeated along the `3 ^ l` columns, then flattened row-major
  to `3 ^ (l + 1)` columns: column `q` of level `l + 1` is column `q / 3` of level `l` times component `q % 3` of the
  row, the newest letter last. The result joins the seven levels along the columns, level `l` starting at column
  `(3 ^ l - 1) / 2`. Every step below is a statement about WHICH element is read: a broadcast reads its operand at the
  index with the new axis dropped, a flattening reads it at the quotient and remainder of the flat position, a
  join reads the piece whose span holds the column. No arithmetic on the extended reals is used at all.
-/
import proofs.«119369_j84851373899904_2_alg».proof.Proof.Gen.ReferenceIdeal.Read
import proofs.«119369_j84851373899904_2_alg».proof.Proof.Levels
import Idealize.ShloMosaic.Lib.Pipeline.Value
import Idealize.ShloMosaic.Lib.ValueIdx

noncomputable section
namespace Cert.RefRead
open Cert.ReferenceIdeal Cert.ReferenceIdeal.Read Idealize.ShloMosaic Idealize.ShloMosaic.ValueIdx Cert.Levels

/-- Level 0 of the reference: the broadcast of the constant word of one; every column (there is one) is the seed. -/
theorem level0 (d : Fin 3 → EReal) (n : Fin 200000) (q : Fin 1) : val_main_v0 (F := Ideal) (ix2 n q) = refLevel one d 0 q.val := by
  rw [val_main_v0_apply, val_main_cst_apply]
  rfl

/-- Level 1 of the reference: column `q` is the seed (level 0, broadcast along the new axis) times component `q` of
    row `n` of the argument. -/
theorem level1 (x0 : (⟨S200000x3, .f32⟩ : BufTy).Contents (Elt Ideal)) (n : Fin 200000) (q : Fin 3) : val_main_v5 (F := Ideal) x0 (ix2 n q) = refLevel one (rowOf x0 n) 1 q.val := by
  rw [val_main_v5_apply, val_main_v4_apply, val_main_v3_apply, val_main_v1_apply, val_main_v2_apply]
  have e1 : idx_main_v1 (idx_main_v3 (idx_main_v5 (ix2 n q))) = ix2 n (0 : Fin 1) := by
    funext a; apply Fin.ext
    match a with
    | ⟨0, _⟩ => (show (n.val * 3 + q.val) / 3 = n.val; have := q.isLt; omega)
    | ⟨1, _⟩ => rfl
  have e2 : idx_main_v2 (idx_main_v5 (ix2 n q)) = ix2 n q := by
    funext a; apply Fin.ext
    match a with
    | ⟨0, _⟩ => (show (n.val * 3 + q.val) / 3 = n.val; have := q.isLt; omega)
    | ⟨1, _⟩ => (show (n.val * 3 + q.val) % 3 = q.val; have := q.isLt; omega)
  rw [e1, e2, level0 (rowOf x0 n) n 0, refLevel_succ, comp_fin]
  rfl

/-- Level 2 of the reference: the reshape of the product of level 1 (broadcast along a new last axis of three) with
    the argument's row (broadcast along the 3 columns): column `q` is column `q / 3` of level 1 times component
    `q % 3` of row `n`. -/
theorem level2 (x0 : (⟨S200000x3, .f32⟩ : BufTy).Contents (Elt Ideal)) (n : Fin 200000) (q : Fin 9) : val_main_v11 (F := Ideal) x0 (ix2 n q) = refLevel one (rowOf x0 n) 2 q.val := by
  have hq : q.val < 9 := q.isLt
  have hn : n.val < 200000 := n.isLt
  rw [val_main_v11_apply, val_main_v10_apply, val_main_v8_apply, val_main_v6_apply, val_main_v9_apply, val_main_v7_apply]
  have e1 : idx_main_v6 (idx_main_v8 (idx_main_v11 (ix2 n q))) = ix2 n (⟨q.val / 3, by omega⟩ : Fin 3) := by
    funext a; apply Fin.ext
    match a with
    | ⟨0, _⟩ => (show (n.val * 9 + q.val) / 9 = n.val; omega)
    | ⟨1, _⟩ => (show (n.val * 9 + q.val) / 3 % 3 = q.val / 3; omega)
  have e2 : idx_main_v7 (idx_main_v9 (idx_main_v11 (ix2 n q))) = ix2 n (⟨q.val % 3, Nat.mod_lt _ (by decide)⟩ : Fin 3) := by
    funext a; apply Fin.ext
    match a with
    | ⟨0, _⟩ => (show (n.val * 9 + q.val) / 9 = n.val; omega)
    | ⟨1, _⟩ => (show (n.val * 9 + q.val) % 3 = q.val % 3; omega)
  rw [e1, e2, level1 x0 n ⟨q.val / 3, by omega⟩, refLevel_succ]
  rfl

/-- Level 3 of the reference: the reshape of the product of level 2 (broadcast along a new last axis of three) with
    the argument's row (broadcast along the 9 columns): column `q` is column `q / 3` of level 2 times component
    `q % 3` of row `n`. -/
theorem level3 (x0 : (⟨S200000x3, .f32⟩ : BufTy).Contents (Elt Ideal)) (n : Fin 200000) (q : Fin 27) : val_main_v17 (F := Ideal) x0 (ix2 n q) = refLevel one (rowOf x0 n) 3 q.val := by
  have hq : q.val < 27 := q.isLt
  have hn : n.val < 200000 := n.isLt
  rw [val_main_v17_apply, val_main_v16_apply, val_main_v14_apply, val_main_v12_apply, val_main_v15_apply, val_main_v13_apply]
  have e1 : idx_main_v12 (idx_main_v14 (idx_main_v17 (ix2 n q))) = ix2 n (⟨q.val / 3, by omega⟩ : Fin 9) := by
    funext a; apply Fin.ext
    match a with
    | ⟨0, _⟩ => (show (n.val * 27 + q.val) / 27 = n.val; omega)
    | ⟨1, _⟩ => (show (n.val * 27 + q.val) / 3 % 9 = q.val / 3; omega)
  have e2 : idx_main_v13 (idx_main_v15 (idx_main_v17 (ix2 n q))) = ix2 n (⟨q.val % 3, Nat.mod_lt _ (by decide)⟩ : Fin 3) := by
    funext a; apply Fin.ext
    match a with
    | ⟨0, _⟩ => (show (n.val * 27 + q.val) / 27 = n.val; omega)
    | ⟨1, _⟩ => (show (n.val * 27 + q.val) % 3 = q.val % 3; omega)
  rw [e1, e2, level2 x0 n ⟨q.val / 3, by omega⟩, refLevel_succ]
  rfl

/-- Level 4 of the reference: the reshape of the product of level 3 (broadcast along a new last axis of three) with
    the argument's row (broadcast along the 27 columns): column `q` is column `q / 3` of level 3 times component
    `q % 3` of row `n`. -/
theorem level4 (x0 : (⟨S200000x3, .f32⟩ : BufTy).Contents (Elt Ideal)) (n : Fin 200000) (q : Fin 81) : val_main_v23 (F := Ideal) x0 (ix2 n q) = refLevel one (rowOf x0 n) 4 q.val := by
  have hq : q.val < 81 := q.isLt
  have hn : n.val < 200000 := n.isLt
  rw [val_main_v23_apply, val_main_v22_apply, val_main_v20_apply, val_main_v18_apply, val_main_v21_apply, val_main_v19_apply]
  have e1 : idx_main_v18 (idx_main_v20 (idx_main_v23 (ix2 n q))) = ix2 n (⟨q.val / 3, by omega⟩ : Fin 27) := by
    funext a; apply Fin.ext
    match a with
    | ⟨0, _⟩ => (show (n.val * 81 + q.val) / 81 = n.val; omega)
    | ⟨1, _⟩ => (show (n.val * 81 + q.val) / 3 % 27 = q.val / 3; omega)
  have e2 : idx_main_v19 (idx_main_v21 (idx_main_v23 (ix2 n q))) = ix2 n (⟨q.val % 3, Nat.mod_lt _ (by decide)⟩ : Fin 3) := by
    funext a; apply Fin.ext
    match a with
    | ⟨0, _⟩ => (show (n.val * 81 + q.val) / 81 = n.val; omega)
    | ⟨1, _⟩ => (show (n.val * 81 + q.val) % 3 = q.val % 3; omega)
  rw [e1, e2, level3 x0 n ⟨q.val / 3, by omega⟩, refLevel_succ]
  rfl

/-- Level 5 of the reference: the reshape of the product of level 4 (broadcast along a new last axis of three) with
    the argument's row (broadcast along the 81 columns): column `q` is column `q / 3` of level 4 times component
    `q % 3` of row `n`. -/
theorem level5 (x0 : (⟨S200000x3, .f32⟩ : BufTy).Contents (Elt Ideal)) (n : Fin 200000) (q : Fin 243) : val_main_v29 (F := Ideal) x0 (ix2 n q) = refLevel one (rowOf x0 n) 5 q.val := by
  have hq : q.val < 243 := q.isLt
  have hn : n.val < 200000 := n.isLt
  rw [val_main_v29_apply, val_main_v28_apply, val_main_v26_apply, val_main_v24_apply, val_main_v27_apply, val_main_v25_apply]
  have e1 : idx_main_v24 (idx_main_v26 (idx_main_v29 (ix2 n q))) = ix2 n (⟨q.val / 3, by omega⟩ : Fin 81) := by
    funext a; apply Fin.ext
    match a with
    | ⟨0, _⟩ => (show (n.val * 243 + q.val) / 243 = n.val; omega)
    | ⟨1, _⟩ => (show (n.val * 243 + q.val) / 3 % 81 = q.val / 3; omega)
  have e2 : idx_main_v25 (idx_main_v27 (idx_main_v29 (ix2 n q))) = ix2 n (⟨q.val % 3, Nat.mod_lt _ (by decide)⟩ : Fin 3) := by
    funext a; apply Fin.ext
    match a with
    | ⟨0, _⟩ => (show (n.val * 243 + q.val) / 243 = n.val; omega)
    | ⟨1, _⟩ => (show (n.val * 243 + q.val) % 3 = q.val % 3; omega)
  rw [e1, e2, level4 x0 n ⟨q.val / 3, by omega⟩, refLevel_succ]
  rfl

/-- Level 6 of the reference: the reshape of the product of level 5 (broadcast along a new last axis of three) with
    the argument's row (broadcast along the 243 columns): column `q` is column `q / 3` of level 5 times component
    `q % 3` of row `n`. -/
theorem level6 (x0 : (⟨S200000x3, .f32⟩ : BufTy).Contents (Elt Ideal)) (n : Fin 200000) (q : Fin 729) : val_main_v35 (F := Ideal) x0 (ix2 n q) = refLevel one (rowOf x0 n) 6 q.val := by
  have hq : q.val < 729 := q.isLt
  have hn : n.val < 200000 := n.isLt
  rw [val_main_v35_apply, val_main_v34_apply, val_main_v32_apply, val_main_v30_apply, val_main_v33_apply, val_main_v31_apply]
  have e1 : idx_main_v30 (idx_main_v32 (idx_main_v35 (ix2 n q))) = ix2 n (⟨q.val / 3, by omega⟩ : Fin 243) := by
    funext a; apply Fin.ext
    match a with
    | ⟨0, _⟩ => (show (n.val * 729 + q.val) / 729 = n.val; omega)
    | ⟨1, _⟩ => (show (n.val * 729 + q.val) / 3 % 243 = q.val / 3; omega)
  have e2 : idx_main_v31 (idx_main_v33 (idx_main_v35 (ix2 n q))) = ix2 n (⟨q.val % 3, Nat.mod_lt _ (by decide)⟩ : Fin 3) := by
    funext a; apply Fin.ext
    match a with
    | ⟨0, _⟩ => (show (n.val * 729 + q.val) / 729 = n.val; omega)
    | ⟨1, _⟩ => (show (n.val * 729 + q.val) % 3 = q.val % 3; omega)
  rw [e1, e2, level5 x0 n ⟨q.val / 3, by omega⟩, refLevel_succ]
  rfl

/-- The reference's result: the seven levels joined along the columns. Column `q` lies in the span of exactly one level
    (level `l` starts at column `(3 ^ l - 1) / 2`), and the joined array read there is that level at the column less its
    start: the basis of row `n`. -/
theorem result (x0 : (⟨S200000x3, .f32⟩ : BufTy).Contents (Elt Ideal)) : val_main_v36 (F := Ideal) x0 = basis one x0 := by
  funext i
  obtain ⟨n, q, rfl⟩ : ∃ (n : Fin 200000) (q : Fin 1093), i = ix2 n q := ⟨i 0, i 1, eq_ix2 i⟩
  rw [basis_apply]
  have hq : q.val < 1093 := q.isLt
  unfold val_main_v36 row
  by_cases h0 : q.val < 1
  · rw [if_pos h0]
    refine Eq.trans ?_ (level0 (rowOf x0 n) n (⟨q.val - 0, by omega⟩ : Fin 1))
    exact concatenate_apply_piece (1 : Fin 2) _ _ (ix2 n q) 0 (by show 0 < 7; decide) _ _ (by rfl) (by rfl) 0 (by rfl)
      (ix2 n (⟨q.val - 0, by omega⟩ : Fin 1))
      (fun b hb => match b with | ⟨0, _⟩ => rfl | ⟨1, _⟩ => absurd rfl hb)
      (show 0 + (q.val - 0) = q.val by omega)
  rw [if_neg h0]
  by_cases h1 : q.val < 4
  · rw [if_pos h1]
    refine Eq.trans ?_ (level1 x0 n (⟨q.val - 1, by omega⟩ : Fin 3))
    exact concatenate_apply_piece (1 : Fin 2) _ _ (ix2 n q) 1 (by show 1 < 7; decide) _ _ (by rfl) (by rfl) 1 (by rfl)
      (ix2 n (⟨q.val - 1, by omega⟩ : Fin 3))
      (fun b hb => match b with | ⟨0, _⟩ => rfl | ⟨1, _⟩ => absurd rfl hb)
      (show 1 + (q.val - 1) = q.val by omega)
  rw [if_neg h1]
  by_cases h2 : q.val < 13
  · rw [if_pos h2]
    refine Eq.trans ?_ (level2 x0 n (⟨q.val - 4, by omega⟩ : Fin 9))
    exact concatenate_apply_piece (1 : Fin 2) _ _ (ix2 n q) 2 (by show 2 < 7; decide) _ _ (by rfl) (by rfl) 4 (by rfl)
      (ix2 n (⟨q.val - 4, by omega⟩ : Fin 9))
      (fun b hb => match b with | ⟨0, _⟩ => rfl | ⟨1, _⟩ => absurd rfl hb)
      (show 4 + (q.val - 4) = q.val by omega)
  rw [if_neg h2]
  by_cases h3 : q.val < 40
  · rw [if_pos h3]
    refine Eq.trans ?_ (level3 x0 n (⟨q.val - 13, by omega⟩ : Fin 27))
    exact concatenate_apply_piece (1 : Fin 2) _ _ (ix2 n q) 3 (by show 3 < 7; decide) _ _ (by rfl) (by rfl) 13 (by rfl)
      (ix2 n (⟨q.val - 13, by omega⟩ : Fin 27))
      (fun b hb => match b with | ⟨0, _⟩ => rfl | ⟨1, _⟩ => absurd rfl hb)
      (show 13 + (q.val - 13) = q.val by omega)
  rw [if_neg h3]
  by_cases h4 : q.val < 121
  · rw [if_pos h4]
    refine Eq.trans ?_ (level4 x0 n (⟨q.val - 40, by omega⟩ : Fin 81))
    exact concatenate_apply_piece (1 : Fin 2) _ _ (ix2 n q) 4 (by show 4 < 7; decide) _ _ (by rfl) (by rfl) 40 (by rfl)
      (ix2 n (⟨q.val - 40, by omega⟩ : Fin 81))
      (fun b hb => match b with | ⟨0, _⟩ => rfl | ⟨1, _⟩ => absurd rfl hb)
      (show 40 + (q.val - 40) = q.val by omega)
  rw [if_neg h4]
  by_cases h5 : q.val < 364
  · rw [if_pos h5]
    refine Eq.trans ?_ (level5 x0 n (⟨q.val - 121, by omega⟩ : Fin 243))
    exact concatenate_apply_piece (1 : Fin 2) _ _ (ix2 n q) 5 (by show 5 < 7; decide) _ _ (by rfl) (by rfl) 121 (by rfl)
      (ix2 n (⟨q.val - 121, by omega⟩ : Fin 243))
      (fun b hb => match b with | ⟨0, _⟩ => rfl | ⟨1, _⟩ => absurd rfl hb)
      (show 121 + (q.val - 121) = q.val by omega)
  rw [if_neg h5]
  refine Eq.trans ?_ (level6 x0 n (⟨q.val - 364, by omega⟩ : Fin 729))
  exact concatenate_apply_piece (1 : Fin 2) _ _ (ix2 n q) 6 (by show 6 < 7; decide) _ _ (by rfl) (by rfl) 364 (by rfl)
    (ix2 n (⟨q.val - 364, by omega⟩ : Fin 729))
    (fun b hb => match b with | ⟨0, _⟩ => rfl | ⟨1, _⟩ => absurd rfl hb)
    (show 364 + (q.val - 364) = q.val by omega)

end Cert.RefRead
end
-- ==== Proof.lean ====
/-
  The proof of `Cert.Claim`: a kernel that expands each row `d = (d 0, d 1, d 2)` of a `200000 × 3` array into the
  levels `0 … 6` of its tensor powers set side by side (`1 + 3 + 9 + … + 729 = 1093` columns: level `l` holds the
  `3 ^ l` products `1 · d a₁ ⋯ d a_l`), against a reference that builds the same levels with the columns of each level
  in the mirror-image order.

  The reference makes level `l + 1` from level `l` by an outer product with the row, flattened: column `q` is column
  `q / 3` of level `l` times component `q % 3` (the newest letter is the column's trailing base-three digit). The
  kernel makes it by setting three scaled copies of level `l` side by side: column `q` is column `q % 3 ^ l` of level `l`
  times component `q / 3 ^ l` (the newest letter is the leading digit). A column's digits name the same letters in
  both orders, read in opposite directions, so the two columns are products of the same factors: equal because
  multiplication on the extended reals is commutative and associative (`Proof/Levels.lean`). No finiteness is used,
  so the precondition is never opened.

  `Proof/Levels.lean` states the levels, the law and the result array's function; `Proof/KerRead.lean` reads the
  kernel body's payload at an entry; `Proof/Blocks.lean` assembles the kernel's 200 written blocks into the whole
  array; `Proof/RefRead.lean` reads the reference's operations at an entry. The three frames are the generated
  ones; the idealization rewrote nothing, so `preserves` is trivial.
-/
import proofs.«119369_j84851373899904_2_alg».proof.Defs
import proofs.«119369_j84851373899904_2_alg».proof.Proof.Gen.Kernel
import proofs.«119369_j84851373899904_2_alg».proof.Proof.Gen.Kernel.Skeleton
import proofs.«119369_j84851373899904_2_alg».proof.Proof.Gen.Kernel.Launch
import proofs.«119369_j84851373899904_2_alg».proof.Proof.Gen.Kernel.Points
import proofs.«119369_j84851373899904_2_alg».proof.Proof.Gen.Kernel.Frame
import proofs.«119369_j84851373899904_2_alg».proof.Proof.Gen.KernelIdeal
import proofs.«119369_j84851373899904_2_alg».proof.Proof.Gen.KernelIdeal.Skeleton
import proofs.«119369_j84851373899904_2_alg».proof.Proof.Gen.KernelIdeal.Launch
import proofs.«119369_j84851373899904_2_alg».proof.Proof.Gen.KernelIdeal.Points
import proofs.«119369_j84851373899904_2_alg».proof.Proof.Gen.KernelIdeal.Frame
import proofs.«119369_j84851373899904_2_alg».proof.Proof.Gen.ReferenceIdeal
import proofs.«119369_j84851373899904_2_alg».proof.Proof.Gen.Pre_finite_inputs
import proofs.«119369_j84851373899904_2_alg».proof.Proof.Gen.KernelIdeal.Value
import proofs.«119369_j84851373899904_2_alg».proof.Proof.Gen.ReferenceIdeal.Run
import proofs.«119369_j84851373899904_2_alg».proof.Proof.Gen.ReferenceIdeal.Read
import proofs.«119369_j84851373899904_2_alg».proof.Proof.Levels
import proofs.«119369_j84851373899904_2_alg».proof.Proof.KerRead
import proofs.«119369_j84851373899904_2_alg».proof.Proof.Blocks
import proofs.«119369_j84851373899904_2_alg».proof.Proof.RefRead
import Idealize.ShloMosaic.Adequacy
import Idealize.ShloMosaic.Init

noncomputable section

namespace Cert.Proof

open Idealize.ShloMosaic Idealize.SL.Sem Cert.Levels

/-- The word-level kernel runs and leaves its argument as it found it: the generated frame. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference has no kernel launch: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to preserve. -/
theorem preserves : Cert.preserves_Kernel_KernelIdeal := trivial

/-- Over the extended reals both programs end with the basis of the argument array — the levels `0 … 6` of the
    tensor powers of each row, side by side — the kernel building each level with the newest factor's letter as the
    column's leading base-three digit, the reference with it as the trailing digit: the same products
    (`Cert.Levels.kerLevel_eq_refLevel`, inside the kernel's run). -/
theorem algebraic : Cert.algebraic_KernelIdeal_ReferenceIdeal := by
  intro m ρ m' ρ' _ hagree
  refine ⟨fun c => basis one (m ((c.tc : Thread Cert.KernelIdeal.nD Cert.KernelIdeal.τ).loc Cert.KernelIdeal.main_arg0)),
    Cert.KernelIdeal.Blocks.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v36_eq, Cert.RefRead.result, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
